-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S16x256 : Shape := ⟨2, ![16, 256]⟩
abbrev S256x16 : Shape := ⟨2, ![256, 16]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S64x256x32x32 .f32) (main_arg1 : FVec F S16x256 .f32) (main_arg2 : FVec F S256x16 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S64x256x32x32 : Shape := ⟨4, ![64, 256, 32, 32]⟩
abbrev S16x256 : Shape := ⟨2, ![16, 256]⟩
abbrev S256x16 : Shape := ⟨2, ![256, 16]⟩
abbrev S64x256x1024 : Shape := ⟨3, ![64, 256, 1024]⟩
abbrev S8x256x1024 : Shape := ⟨3, ![8, 256, 1024]⟩
abbrev S8x256 : Shape := ⟨2, ![8, 256]⟩
abbrev S8x16 : Shape := ⟨2, ![8, 16]⟩
abbrev S8x256x1 : Shape := ⟨3, ![8, 256, 1]⟩

abbrev nBuf : Space → Nat
  | .hbm => 10
  | .vmem => 6
  | .smem => 0
  | _ => 0

abbrev bufTy : (tb : Table) → Fin (tcTables nBuf tb) → BufTy
  | .hbm, ⟨0, _⟩ => ⟨S64x256x32x32, .f32⟩
  | .hbm, ⟨1, _⟩ => ⟨S16x256, .f32⟩
  | .hbm, ⟨2, _⟩ => ⟨S256x16, .f32⟩
  | .hbm, ⟨3, _⟩ => ⟨S64x256x32x32, .bf16⟩
  | .hbm, ⟨4, _⟩ => ⟨S64x256x1024, .bf16⟩
  | .hbm, ⟨5, _⟩ => ⟨S256x16, .f32⟩
  | .hbm, ⟨6, _⟩ => ⟨S16x256, .f32⟩
  | .hbm, ⟨7, _⟩ => ⟨S64x256x1024, .bf16⟩
  | .hbm, ⟨8, _⟩ => ⟨S64x256x1024, .f32⟩
  | .hbm, ⟨9, _⟩ => ⟨S64x256x32x32, .f32⟩
  | .local _ .vmem, ⟨0, _⟩ => ⟨S8x256x1024, .bf16⟩
  | .local _ .vmem, ⟨1, _⟩ => ⟨S8x256x1024, .bf16⟩
  | .local _ .vmem, ⟨2, _⟩ => ⟨S256x16, .f32⟩
  | .local _ .vmem, ⟨3, _⟩ => ⟨S16x256, .f32⟩
  | .local _ .vmem, ⟨4, _⟩ => ⟨S8x256x1024, .bf16⟩
  | .local _ .vmem, ⟨5, _⟩ => ⟨S8x256x1024, .bf16⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S64x256x32x32_S64x256x1024 : S64x256x32x32.ShapeCasts S64x256x1024
  transposes_S16x256_S256x16_1_0 : S16x256.Transposes [1, 0] S256x16
  transposes_S256x16_S16x256_1_0 : S256x16.Transposes [1, 0] S16x256
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S8x256_S8x256x1 : S8x256.ShapeCasts S8x256x1
  broadcasts_S8x256x1_S8x256x1024 : S8x256x1.Broadcasts S8x256x1024
  packedbf16_S8x256x1024_S8x256x1024_0_0_0 : (Rect.unit (s := S8x256x1024) ![0, 0, 0] S8x256x1024.size inb_S8x256x1024_S8x256x1024_0_0_0).PackedRows (EltTy.packing .bf16)
  shapeCasts_S64x256x1024_S64x256x32x32 : S64x256x1024.ShapeCasts S64x256x32x32
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x1024.size a
  hwx0_0 : ∀ i : grid0.Coords, EltTy.bits .bf16 = 32 ∨ (Rect.block (s := S64x256x1024) S8x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1024.size a ≤ S64x256x1024.size a
  hwx0_3 : ∀ i : grid0.Coords, EltTy.bits .bf16 = 32 ∨ (Rect.block (s := S64x256x1024) S8x256x1024.size (cc0_transform_3 i) (hinb0_3 i)).WholeWords (EltTy.packing .bf16)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v1) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S16x256 : Shape := ⟨2, ![16, 256]⟩
abbrev S256x16 : Shape := ⟨2, ![256, 16]⟩
abbrev S64x256x1024 : Shape := ⟨3, ![64, 256, 1024]⟩
abbrev S8x256x1024 : Shape := ⟨3, ![8, 256, 1024]⟩
abbrev S8x256 : Shape := ⟨2, ![8, 256]⟩
abbrev S8x16 : Shape := ⟨2, ![8, 16]⟩
abbrev S8x256x1 : Shape := ⟨3, ![8, 256, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x256x32x32, .f32⟩
  | .hbm, ⟨1, _⟩ => ⟨S16x256, .f32⟩
  | .hbm, ⟨2, _⟩ => ⟨S256x16, .f32⟩
  | .hbm, ⟨3, _⟩ => ⟨S64x256x1024, .f32⟩
  | .hbm, ⟨4, _⟩ => ⟨S256x16, .f32⟩
  | .hbm, ⟨5, _⟩ => ⟨S16x256, .f32⟩
  | .hbm, ⟨6, _⟩ => ⟨S64x256x1024, .f32⟩
  | .hbm, ⟨7, _⟩ => ⟨S64x256x32x32, .f32⟩
  | .local _ .vmem, ⟨0, _⟩ => ⟨S8x256x1024, .f32⟩
  | .local _ .vmem, ⟨1, _⟩ => ⟨S8x256x1024, .f32⟩
  | .local _ .vmem, ⟨2, _⟩ => ⟨S256x16, .f32⟩
  | .local _ .vmem, ⟨3, _⟩ => ⟨S16x256, .f32⟩
  | .local _ .vmem, ⟨4, _⟩ => ⟨S8x256x1024, .f32⟩
  | .local _ .vmem, ⟨5, _⟩ => ⟨S8x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x256x32x32_S64x256x1024 : S64x256x32x32.ShapeCasts S64x256x1024
  transposes_S16x256_S256x16_1_0 : S16x256.Transposes [1, 0] S256x16
  transposes_S256x16_S16x256_1_0 : S256x16.Transposes [1, 0] S16x256
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S8x256_S8x256x1 : S8x256.ShapeCasts S8x256x1
  broadcasts_S8x256x1_S8x256x1024 : S8x256x1.Broadcasts S8x256x1024
  shapeCasts_S64x256x1024_S64x256x32x32 : S64x256x1024.ShapeCasts S64x256x32x32
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x1024.size a
  hwx0_0 : ∀ i : grid0.Coords, EltTy.bits .f32 = 32 ∨ (Rect.block (s := S64x256x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1024.size a ≤ S64x256x1024.size a
  hwx0_3 : ∀ i : grid0.Coords, EltTy.bits .f32 = 32 ∨ (Rect.block (s := S64x256x1024) S8x256x1024.size (cc0_transform_3 i) (hinb0_3 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.TileSpec.lean ====
/-
  The shape of the result, stated apart from either program.

  The array has extents [64, 256, 1024] (batch, channel, flattened spatial position) and is cut along the batch axis
  into 8 tiles of 8 consecutive batch rows. Both programs compute, tile by tile, ONE function of the tile and of the two
  weight matrices: the spatial mean of every (batch, channel) row, two small matrix products with a rectifier between
  them, a logistic, and the tile rescaled channel by channel. Nothing in one tile depends on another, so the array after
  the run is "that per-tile function, spread over the batch axis": entry (b, c, s) is entry (b mod 8, c, s) of the
  function applied to tile b / 8. This module names that spreading (`spread`) for ANY per-tile function and proves the
  one fact used of it: read at row 8·t + p it is the per-tile function of tile t read at row p.
-/
import Idealize.ShloMosaic.Lib.ValueIdx

noncomputable section

namespace Cert.SeTile

open Idealize.ShloMosaic Idealize.ShloMosaic.ValueIdx

/-- The whole array: 64 batch rows, 256 channels, 1024 spatial positions. -/
abbrev Arr : Shape := ⟨3, ![64, 256, 1024]⟩
/-- One tile: 8 consecutive batch rows. -/
abbrev Tile : Shape := ⟨3, ![8, 256, 1024]⟩
/-- The first weight matrix as the body reads it, channels by hidden units. -/
abbrev Wa : Shape := ⟨2, ![256, 16]⟩
/-- The second weight matrix as the body reads it, hidden units by channels. -/
abbrev Wb : Shape := ⟨2, ![16, 256]⟩

/-- Tile `t` of an array: its batch rows `8·t … 8·t + 7`. -/
def tileOf (x : Arr.Idx → EReal) (t : Fin 8) : Tile.Idx → EReal := fun y =>
  x (ix3 (⟨8 * t.val + (y 0).val, by have h : (y 0).val < 8 := (y 0).isLt; omega⟩ : Fin 64) (y 1) (y 2))

/-- A per-tile function spread over the batch axis: entry `(b, c, s)` of the result is entry `(b mod 8, c, s)` of the
    function applied to tile `b / 8`. -/
def spread (f : (Tile.Idx → EReal) → (Wa.Idx → EReal) → (Wb.Idx → EReal) → Tile.Idx → EReal)
    (x : Arr.Idx → EReal) (a : Wa.Idx → EReal) (b : Wb.Idx → EReal) : Arr.Idx → EReal := fun i =>
  f (tileOf x (⟨(i 0).val / 8, by have h : (i 0).val < 64 := (i 0).isLt; omega⟩ : Fin 8)) a b
    (ix3 (⟨(i 0).val % 8, Nat.mod_lt _ (by decide)⟩ : Fin 8) (i 1) (i 2))

/-- Read at batch row `8·t + p`, the spread function is the per-tile function of tile `t` read at row `p`:
    `(8·t + p) / 8 = t` and `(8·t + p) mod 8 = p` for `p < 8`. -/
theorem spread_at (f : (Tile.Idx → EReal) → (Wa.Idx → EReal) → (Wb.Idx → EReal) → Tile.Idx → EReal)
    (x : Arr.Idx → EReal) (a : Wa.Idx → EReal) (b : Wb.Idx → EReal) (t : Fin 8) (y : Tile.Idx)
    (h : 8 * t.val + (y 0).val < 64) :
    spread f x a b (ix3 (⟨8 * t.val + (y 0).val, h⟩ : Fin 64) (y 1) (y 2)) = f (tileOf x t) a b y := by
  have hy : (y 0).val < 8 := (y 0).isLt
  have e1 : (⟨(8 * t.val + (y 0).val) / 8, by omega⟩ : Fin 8) = t := Fin.ext (by show (8 * t.val + (y 0).val) / 8 = t.val; omega)
  have e2 : ix3 (⟨(8 * t.val + (y 0).val) % 8, Nat.mod_lt _ (by decide)⟩ : Fin 8) (y 1) (y 2) = y := by
    funext d
    match d with
    | ⟨0, _⟩ => exact Fin.ext (by show (8 * t.val + (y 0).val) % 8 = (y 0).val; omega)
    | ⟨1, _⟩ => rfl
    | ⟨2, _⟩ => rfl
  show f (tileOf x (⟨(8 * t.val + (y 0).val) / 8, _⟩ : Fin 8)) a b
      (ix3 (⟨(8 * t.val + (y 0).val) % 8, _⟩ : Fin 8) (y 1) (y 2)) = _
  rw [e1]
  exact congrArg (f (tileOf x t) a b) e2

/-- The programs' argument and result shape: the array with its spatial axis as 32 × 32. -/
abbrev Img : Shape := ⟨4, ![64, 256, 32, 32]⟩

/-- The whole program around a per-tile function `f`: flatten the spatial axes of the activations, transpose each weight
    matrix, spread `f` over the batch axis, and unflatten. (The four side conditions are the layout operations' own:
    equal element counts for the two reshapes, and the axis permutation for the two transposes.) -/
def resultOf (f : (Tile.Idx → EReal) → (Wa.Idx → EReal) → (Wb.Idx → EReal) → Tile.Idx → EReal)
    (hflat : Img.ShapeCasts Arr) (hunflat : Arr.ShapeCasts Img)
    (hta : Wb.Transposes [1, 0] Wa) (htb : Wa.Transposes [1, 0] Wb)
    (x : Img.Idx → EReal) (w1 : Wb.Idx → EReal) (w2 : Wa.Idx → EReal) : Img.Idx → EReal :=
  shapeCast Img (spread f (shapeCast Arr x hflat) (transpose Wa [1, 0] w1 hta) (transpose Wb [1, 0] w2 htb)) hunflat

end Cert.SeTile

end
-- ==== Proof.KernelRun.lean ====
/-
  The idealized kernel's run, read: what its result array holds, as a function of the argument arrays.

  The region's grid has 8 points. At point `t` the staged block of the activations is batch tile `t` of the array the
  region finds (index map `t ↦ (t, 0, 0)` with blocks of 8 batch rows), both weight matrices are staged whole (their
  index maps are constant `(0, 0)`), and the output's block is again tile `t`. The body stores, through one covering
  store, its payload of the three staged blocks; so what point `t` writes back is the payload of tile `t` and of the two
  weight matrices, which is block `t` of the payload spread over the batch axis (`Cert.SeTile.spread`). The 8 output blocks
  tile the array — row `b` lies in the block of point `b / 8` — so the array after the region IS that spread function.
  Around the region the host lines only re-lay data: before it the activations change float format (the identity on extended reals) and are flattened from [64, 256, 32, 32] to [64, 256, 1024], and each weight matrix is transposed; after it the region's array changes format back and is unflattened to [64, 256, 32, 32].
-/
import proofs.«166209_g2000703635522999_pallasbulk_1314_29_alg».proof.Proof.Gen.KernelIdeal.Frame
import proofs.«166209_g2000703635522999_pallasbulk_1314_29_alg».proof.Proof.TileSpec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Tile

open Cert.KernelIdeal Cert.KernelIdeal.Gen Cert.SeTile

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- A grid point as a tile number. -/
def tileNo (t : Fin cfg0.N) : Fin 8 := ⟨t.val, lt_of_lt_of_eq t.isLt N_0⟩

/-- The printed index maps, decided over the 8 points: the activations' and the output's block index is `(t, 0, 0)`,
    the weight matrices' is `(0, 0)`. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The activations' block at point `t` is batch tile `t` of the array the region finds: local row `p` is row
    `t · 8 + p`, and the other two axes are whole. -/
theorem act_block (c : Dev nD) (t : Fin cfg0.N) :
    (iblk m c 0 t : Tile.Idx → EReal) = tileOf (V m c main_v1) (tileNo t) := by
  funext y
  obtain ⟨e0, e1, e2, -⟩ := index_maps t
  have hy0 : (y 0).val < 8 := (y 0).isLt
  have hy1 : (y 1).val < 256 := (y 1).isLt
  have hy2 : (y 2).val < 1024 := (y 2).isLt
  have ht : t.val < 8 := (tileNo t).isLt
  have h : ((cfg0.win 0).blk t).view.emb y
      = ix3 (⟨8 * t.val + (y 0).val, by omega⟩ : Fin 64) (y 1) (y 2) := by
    funext a; apply Fin.ext
    match a with
    | ⟨0, _⟩ => show win0_0.index t (0 : Fin 3) * 8 + 1 * (y 0).val = 8 * t.val + (y 0).val; omega
    | ⟨1, _⟩ => show win0_0.index t (1 : Fin 3) * 256 + 1 * (y 1).val = (y 1).val; omega
    | ⟨2, _⟩ => show win0_0.index t (2 : Fin 3) * 1024 + 1 * (y 2).val = (y 2).val; omega
  show V m c main_v1 (((cfg0.win 0).blk t).view.emb y) = V m c main_v1 _
  exact congrArg (V m c main_v1) h

/-- The first weight matrix is staged whole at every point. -/
theorem wa_block (c : Dev nD) (t : Fin cfg0.N) : (iblk m c 1 t : Wa.Idx → EReal) = V m c main_v2 := by
  funext y
  obtain ⟨-, -, -, e0, e1, -⟩ := index_maps t
  have h : ((cfg0.win 1).blk t).view.emb y = y := by
    funext a; apply Fin.ext
    match a with
    | ⟨0, _⟩ => show win0_1.index t (0 : Fin 2) * 256 + 1 * (y 0).val = (y 0).val; omega
    | ⟨1, _⟩ => show win0_1.index t (1 : Fin 2) * 16 + 1 * (y 1).val = (y 1).val; omega
  show V m c main_v2 (((cfg0.win 1).blk t).view.emb y) = V m c main_v2 y
  exact congrArg (V m c main_v2) h

/-- The second weight matrix is staged whole at every point. -/
theorem wb_block (c : Dev nD) (t : Fin cfg0.N) : (iblk m c 2 t : Wb.Idx → EReal) = V m c main_v3 := by
  funext y
  obtain ⟨-, -, -, -, -, e0, e1, -⟩ := index_maps t
  have h : ((cfg0.win 2).blk t).view.emb y = y := by
    funext a; apply Fin.ext
    match a with
    | ⟨0, _⟩ => show win0_2.index t (0 : Fin 2) * 16 + 1 * (y 0).val = (y 0).val; omega
    | ⟨1, _⟩ => show win0_2.index t (1 : Fin 2) * 256 + 1 * (y 1).val = (y 1).val; omega
  show V m c main_v3 (((cfg0.win 2).blk t).view.emb y) = V m c main_v3 y
  exact congrArg (V m c main_v3) h

/-- The array after the region: the body's payload, spread over the batch axis, of the arrays the region finds. -/
abbrev regionOut (c : Dev nD) : Arr.Idx → EReal :=
  spread (k0_pay1 (F := Ideal)) (V m c main_v1) (V m c main_v2) (V m c main_v3)

/-- What point `t` writes back is block `t` of `regionOut`: the one covering store leaves the payload of the staged
    blocks, tile `t` and the two whole matrices; and entry `(p, c, s)` of the output's block is entry `(8·t + p, c, s)`
    of the array, where the spread payload is the payload of tile `t` at `(p, c, s)`. -/
theorem flushed_eq (c : Dev nD) (t : Fin cfg0.N) :
    (dats m 0 c).flushed 3 t = ((cfg0.win 3).blk t).view.read (Elt Ideal) (regionOut m c) := by
  show (cfg0.win 3).cut (grid0.coords t) ((dats m 0 c).after 3 t) = _
  rw [after0_3]
  unfold out0_3
  rw [View.canon_unit_zero zeros3]
  simp only [View.ld_unit_zero (S := S8x256x1024) zeros3, View.ld_unit_zero (S := S256x16) zeros2,
    View.ld_unit_zero (S := S16x256) zeros2]
  funext j
  obtain ⟨-, -, -, -, -, -, -, e0, e1, e2⟩ := index_maps t
  have hj0 : (j 0).val < 8 := (j 0).isLt
  have hj1 : (j 1).val < 256 := (j 1).isLt
  have hj2 : (j 2).val < 1024 := (j 2).isLt
  have ht : t.val < 8 := (tileNo t).isLt
  have hlt : 8 * (tileNo t).val + (j 0).val < 64 := by show 8 * t.val + (j 0).val < 64; omega
  have h : ((cfg0.win 3).blk t).view.emb j
      = ix3 (⟨8 * (tileNo t).val + (j 0).val, hlt⟩ : Fin 64) (j 1) (j 2) := by
    funext a; apply Fin.ext
    match a with
    | ⟨0, _⟩ => show win0_3.index t (0 : Fin 3) * 8 + 1 * (j 0).val = 8 * t.val + (j 0).val; omega
    | ⟨1, _⟩ => show win0_3.index t (1 : Fin 3) * 256 + 1 * (j 1).val = (j 1).val; omega
    | ⟨2, _⟩ => show win0_3.index t (2 : Fin 3) * 1024 + 1 * (j 2).val = (j 2).val; omega
  show k0_pay1 (F := Ideal) (iblk m c 0 t) (iblk m c 1 t) (iblk m c 2 t) j
    = regionOut m c (((cfg0.win 3).blk t).view.emb j)
  rw [h]
  refine Eq.trans ?_ (spread_at (k0_pay1 (F := Ideal)) (V m c main_v1) (V m c main_v2) (V m c main_v3) (tileNo t) j hlt).symm
  rw [← act_block m c t, ← wa_block m c t, ← wb_block m c t]

/-- An index of the array is in point `t`'s output block iff each coordinate is in the block's range on its axis. -/
theorem mem_block (t : Fin cfg0.N) (i : S64x256x1024.Idx) :
    i ∈ ((cfg0.win 3).blk t).view.set ↔ ∀ a : Fin 3, win0_3.index t a * S8x256x1024.size a ≤ (i a).val
      ∧ (i a).val < win0_3.index t a * S8x256x1024.size a + S8x256x1024.size a := by
  show i ∈ ((View.whole main_v4).slice (win0_3.rect t)).set ↔ _
  rw [View.set_slice_whole, Rect.mem_set_unit]
  exact Iff.rfl

/-- The 8 output blocks tile the array: batch row `b` lies in the block of point `b / 8`. -/
theorem blocks_cover (i : S64x256x1024.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  have hN : (i 0).val / 8 < cfg0.N := lt_of_lt_of_eq (by omega : (i 0).val / 8 < 8) N_0.symm
  refine ⟨⟨(i 0).val / 8, hN⟩, flush0_3 _, ?_⟩
  rw [mem_block]
  obtain ⟨-, -, -, -, -, -, -, e0, e1, e2⟩ := index_maps ⟨(i 0).val / 8, hN⟩
  have e0' : win0_3.index ⟨(i 0).val / 8, hN⟩ (0 : Fin 3) = (i 0).val / 8 := e0
  intro a
  match a with
  | ⟨0, _⟩ => show win0_3.index ⟨(i 0).val / 8, hN⟩ (0 : Fin 3) * 8 ≤ (i 0).val ∧ (i 0).val < win0_3.index ⟨(i 0).val / 8, hN⟩ (0 : Fin 3) * 8 + 8; omega
  | ⟨1, _⟩ => show win0_3.index ⟨(i 0).val / 8, hN⟩ (1 : Fin 3) * 256 ≤ (i 1).val ∧ (i 1).val < win0_3.index ⟨(i 0).val / 8, hN⟩ (1 : Fin 3) * 256 + 256; omega
  | ⟨2, _⟩ => show win0_3.index ⟨(i 0).val / 8, hN⟩ (2 : Fin 3) * 1024 ≤ (i 2).val ∧ (i 2).val < win0_3.index ⟨(i 0).val / 8, hN⟩ (2 : Fin 3) * 1024 + 1024; omega

/-- So the output array ends holding `regionOut`. -/
theorem region_final (c : Dev nD) : (dats m 0 c).arrAt 3 cfg0.N = regionOut m c :=
  (dats m 0 c).arrAt_eq_of_cover 3 (regionOut m c) (fun t _ => flushed_eq m c t) blocks_cover

/-! ## The host lines around the region -/

/-- The activations as the region finds them: the argument, flattened (the format change before the reshape is the
    identity on extended reals). -/
theorem entry_x (c : Dev nD) : (V m c main_v1 : Arr.Idx → EReal)
    = shapeCast Arr (m ((c : Thread nD τ).loc main_arg0) : Img.Idx → EReal) shapeCasts_S64x256x32x32_S64x256x1024 := by
  show StableHlo.after hostOps0 (fun b => m (c, b)) (Proc.devRef .tc main_v1) = _
  after_results
  rfl

/-- The first weight matrix as the region finds it: the argument, transposed. -/
theorem entry_a (c : Dev nD) : (V m c main_v2 : Wa.Idx → EReal)
    = transpose Wa [1, 0] (m ((c : Thread nD τ).loc main_arg1) : Wb.Idx → EReal) transposes_S16x256_S256x16_1_0 := by
  show StableHlo.after hostOps0 (fun b => m (c, b)) (Proc.devRef .tc main_v2) = _
  after_results

/-- The second weight matrix as the region finds it: the argument, transposed. -/
theorem entry_b (c : Dev nD) : (V m c main_v3 : Wb.Idx → EReal)
    = transpose Wb [1, 0] (m ((c : Thread nD τ).loc main_arg2) : Wa.Idx → EReal) transposes_S256x16_S16x256_1_0 := by
  show StableHlo.after hostOps0 (fun b => m (c, b)) (Proc.devRef .tc main_v3) = _
  after_results

/-- The program's result as a function of its arguments. -/
abbrev result (c : Dev nD) : Img.Idx → EReal :=
  resultOf (k0_pay1 (F := Ideal)) shapeCasts_S64x256x32x32_S64x256x1024 shapeCasts_S64x256x1024_S64x256x32x32
    transposes_S16x256_S256x16_1_0 transposes_S256x16_S16x256_1_0
    (m ((c : Thread nD τ).loc main_arg0)) (m ((c : Thread nD τ).loc main_arg1)) (m ((c : Thread nD τ).loc main_arg2))

/-- What the lines after the region leave in the result buffer: the region's array (`region_final`), its format changed
    back (the identity) and unflattened. -/
theorem result_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have hw := (Pipeline.withArrays_arr spec0 launch0.win.arr_inj c (V0 m c)
    (fun w => (dats m 0 c).arrAt w cfg0.N) 3).trans (region_final m c)
  unfold result resultOf
  rw [← entry_x m c, ← entry_a m c, ← entry_b m c]
  show shapeCast Img (Pipeline.withArrays spec0 c (V0 m c) (fun w => (dats m 0 c).arrAt w cfg0.N)
      (Proc.devRef .tc (Pipeline.arrRef spec0 3))) shapeCasts_S64x256x1024_S64x256x32x32 = _
  rw [hw]

/-- The run, read: the result buffer ends at `result`, the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tile

end
-- ==== Proof.ReferenceRun.lean ====
/-
  The idealized reference's run, read: what its result array holds, as a function of the argument arrays.

  The region's grid has 8 points. At point `t` the staged block of the activations is batch tile `t` of the array the
  region finds (index map `t ↦ (t, 0, 0)` with blocks of 8 batch rows), both weight matrices are staged whole (their
  index maps are constant `(0, 0)`), and the output's block is again tile `t`. The body stores, through one covering
  store, its payload of the three staged blocks; so what point `t` writes back is the payload of tile `t` and of the two
  weight matrices, which is block `t` of the payload spread over the batch axis (`Cert.SeTile.spread`). The 8 output blocks
  tile the array — row `b` lies in the block of point `b / 8` — so the array after the region IS that spread function.
  Around the region the host lines only re-lay data: before it the activations are flattened from [64, 256, 32, 32] to [64, 256, 1024], and each weight matrix is transposed; after it the region's array is unflattened to [64, 256, 32, 32].
-/
import proofs.«166209_g2000703635522999_pallasbulk_1314_29_alg».proof.Proof.Gen.ReferenceIdeal.Frame
import proofs.«166209_g2000703635522999_pallasbulk_1314_29_alg».proof.Proof.TileSpec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.ReferenceIdeal.Tile

open Cert.ReferenceIdeal Cert.ReferenceIdeal.Gen Cert.SeTile

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- A grid point as a tile number. -/
def tileNo (t : Fin cfg0.N) : Fin 8 := ⟨t.val, lt_of_lt_of_eq t.isLt N_0⟩

/-- The printed index maps, decided over the 8 points: the activations' and the output's block index is `(t, 0, 0)`,
    the weight matrices' is `(0, 0)`. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The activations' block at point `t` is batch tile `t` of the array the region finds: local row `p` is row
    `t · 8 + p`, and the other two axes are whole. -/
theorem act_block (c : Dev nD) (t : Fin cfg0.N) :
    (iblk m c 0 t : Tile.Idx → EReal) = tileOf (V m c main_v0) (tileNo t) := by
  funext y
  obtain ⟨e0, e1, e2, -⟩ := index_maps t
  have hy0 : (y 0).val < 8 := (y 0).isLt
  have hy1 : (y 1).val < 256 := (y 1).isLt
  have hy2 : (y 2).val < 1024 := (y 2).isLt
  have ht : t.val < 8 := (tileNo t).isLt
  have h : ((cfg0.win 0).blk t).view.emb y
      = ix3 (⟨8 * t.val + (y 0).val, by omega⟩ : Fin 64) (y 1) (y 2) := by
    funext a; apply Fin.ext
    match a with
    | ⟨0, _⟩ => show win0_0.index t (0 : Fin 3) * 8 + 1 * (y 0).val = 8 * t.val + (y 0).val; omega
    | ⟨1, _⟩ => show win0_0.index t (1 : Fin 3) * 256 + 1 * (y 1).val = (y 1).val; omega
    | ⟨2, _⟩ => show win0_0.index t (2 : Fin 3) * 1024 + 1 * (y 2).val = (y 2).val; omega
  show V m c main_v0 (((cfg0.win 0).blk t).view.emb y) = V m c main_v0 _
  exact congrArg (V m c main_v0) h

/-- The first weight matrix is staged whole at every point. -/
theorem wa_block (c : Dev nD) (t : Fin cfg0.N) : (iblk m c 1 t : Wa.Idx → EReal) = V m c main_v1 := by
  funext y
  obtain ⟨-, -, -, e0, e1, -⟩ := index_maps t
  have h : ((cfg0.win 1).blk t).view.emb y = y := by
    funext a; apply Fin.ext
    match a with
    | ⟨0, _⟩ => show win0_1.index t (0 : Fin 2) * 256 + 1 * (y 0).val = (y 0).val; omega
    | ⟨1, _⟩ => show win0_1.index t (1 : Fin 2) * 16 + 1 * (y 1).val = (y 1).val; omega
  show V m c main_v1 (((cfg0.win 1).blk t).view.emb y) = V m c main_v1 y
  exact congrArg (V m c main_v1) h

/-- The second weight matrix is staged whole at every point. -/
theorem wb_block (c : Dev nD) (t : Fin cfg0.N) : (iblk m c 2 t : Wb.Idx → EReal) = V m c main_v2 := by
  funext y
  obtain ⟨-, -, -, -, -, e0, e1, -⟩ := index_maps t
  have h : ((cfg0.win 2).blk t).view.emb y = y := by
    funext a; apply Fin.ext
    match a with
    | ⟨0, _⟩ => show win0_2.index t (0 : Fin 2) * 16 + 1 * (y 0).val = (y 0).val; omega
    | ⟨1, _⟩ => show win0_2.index t (1 : Fin 2) * 256 + 1 * (y 1).val = (y 1).val; omega
  show V m c main_v2 (((cfg0.win 2).blk t).view.emb y) = V m c main_v2 y
  exact congrArg (V m c main_v2) h

/-- The array after the region: the body's payload, spread over the batch axis, of the arrays the region finds. -/
abbrev regionOut (c : Dev nD) : Arr.Idx → EReal :=
  spread (k0_pay1 (F := Ideal)) (V m c main_v0) (V m c main_v1) (V m c main_v2)

/-- What point `t` writes back is block `t` of `regionOut`: the one covering store leaves the payload of the staged
    blocks, tile `t` and the two whole matrices; and entry `(p, c, s)` of the output's block is entry `(8·t + p, c, s)`
    of the array, where the spread payload is the payload of tile `t` at `(p, c, s)`. -/
theorem flushed_eq (c : Dev nD) (t : Fin cfg0.N) :
    (dats m 0 c).flushed 3 t = ((cfg0.win 3).blk t).view.read (Elt Ideal) (regionOut m c) := by
  show (cfg0.win 3).cut (grid0.coords t) ((dats m 0 c).after 3 t) = _
  rw [after0_3]
  unfold out0_3
  rw [View.canon_unit_zero zeros3]
  simp only [View.ld_unit_zero (S := S8x256x1024) zeros3, View.ld_unit_zero (S := S256x16) zeros2,
    View.ld_unit_zero (S := S16x256) zeros2]
  funext j
  obtain ⟨-, -, -, -, -, -, -, e0, e1, e2⟩ := index_maps t
  have hj0 : (j 0).val < 8 := (j 0).isLt
  have hj1 : (j 1).val < 256 := (j 1).isLt
  have hj2 : (j 2).val < 1024 := (j 2).isLt
  have ht : t.val < 8 := (tileNo t).isLt
  have hlt : 8 * (tileNo t).val + (j 0).val < 64 := by show 8 * t.val + (j 0).val < 64; omega
  have h : ((cfg0.win 3).blk t).view.emb j
      = ix3 (⟨8 * (tileNo t).val + (j 0).val, hlt⟩ : Fin 64) (j 1) (j 2) := by
    funext a; apply Fin.ext
    match a with
    | ⟨0, _⟩ => show win0_3.index t (0 : Fin 3) * 8 + 1 * (j 0).val = 8 * t.val + (j 0).val; omega
    | ⟨1, _⟩ => show win0_3.index t (1 : Fin 3) * 256 + 1 * (j 1).val = (j 1).val; omega
    | ⟨2, _⟩ => show win0_3.index t (2 : Fin 3) * 1024 + 1 * (j 2).val = (j 2).val; omega
  show k0_pay1 (F := Ideal) (iblk m c 0 t) (iblk m c 1 t) (iblk m c 2 t) j
    = regionOut m c (((cfg0.win 3).blk t).view.emb j)
  rw [h]
  refine Eq.trans ?_ (spread_at (k0_pay1 (F := Ideal)) (V m c main_v0) (V m c main_v1) (V m c main_v2) (tileNo t) j hlt).symm
  rw [← act_block m c t, ← wa_block m c t, ← wb_block m c t]

/-- An index of the array is in point `t`'s output block iff each coordinate is in the block's range on its axis. -/
theorem mem_block (t : Fin cfg0.N) (i : S64x256x1024.Idx) :
    i ∈ ((cfg0.win 3).blk t).view.set ↔ ∀ a : Fin 3, win0_3.index t a * S8x256x1024.size a ≤ (i a).val
      ∧ (i a).val < win0_3.index t a * S8x256x1024.size a + S8x256x1024.size a := by
  show i ∈ ((View.whole main_v3).slice (win0_3.rect t)).set ↔ _
  rw [View.set_slice_whole, Rect.mem_set_unit]
  exact Iff.rfl

/-- The 8 output blocks tile the array: batch row `b` lies in the block of point `b / 8`. -/
theorem blocks_cover (i : S64x256x1024.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 1024 := (i 2).isLt
  have hN : (i 0).val / 8 < cfg0.N := lt_of_lt_of_eq (by omega : (i 0).val / 8 < 8) N_0.symm
  refine ⟨⟨(i 0).val / 8, hN⟩, flush0_3 _, ?_⟩
  rw [mem_block]
  obtain ⟨-, -, -, -, -, -, -, e0, e1, e2⟩ := index_maps ⟨(i 0).val / 8, hN⟩
  have e0' : win0_3.index ⟨(i 0).val / 8, hN⟩ (0 : Fin 3) = (i 0).val / 8 := e0
  intro a
  match a with
  | ⟨0, _⟩ => show win0_3.index ⟨(i 0).val / 8, hN⟩ (0 : Fin 3) * 8 ≤ (i 0).val ∧ (i 0).val < win0_3.index ⟨(i 0).val / 8, hN⟩ (0 : Fin 3) * 8 + 8; omega
  | ⟨1, _⟩ => show win0_3.index ⟨(i 0).val / 8, hN⟩ (1 : Fin 3) * 256 ≤ (i 1).val ∧ (i 1).val < win0_3.index ⟨(i 0).val / 8, hN⟩ (1 : Fin 3) * 256 + 256; omega
  | ⟨2, _⟩ => show win0_3.index ⟨(i 0).val / 8, hN⟩ (2 : Fin 3) * 1024 ≤ (i 2).val ∧ (i 2).val < win0_3.index ⟨(i 0).val / 8, hN⟩ (2 : Fin 3) * 1024 + 1024; omega

/-- So the output array ends holding `regionOut`. -/
theorem region_final (c : Dev nD) : (dats m 0 c).arrAt 3 cfg0.N = regionOut m c :=
  (dats m 0 c).arrAt_eq_of_cover 3 (regionOut m c) (fun t _ => flushed_eq m c t) blocks_cover

/-! ## The host lines around the region -/

/-- The activations as the region finds them: the argument, flattened. -/
theorem entry_x (c : Dev nD) : (V m c main_v0 : Arr.Idx → EReal)
    = shapeCast Arr (m ((c : Thread nD τ).loc main_arg0) : Img.Idx → EReal) shapeCasts_S64x256x32x32_S64x256x1024 := by
  show StableHlo.after hostOps0 (fun b => m (c, b)) (Proc.devRef .tc main_v0) = _
  after_results
  rfl

/-- The first weight matrix as the region finds it: the argument, transposed. -/
theorem entry_a (c : Dev nD) : (V m c main_v1 : Wa.Idx → EReal)
    = transpose Wa [1, 0] (m ((c : Thread nD τ).loc main_arg1) : Wb.Idx → EReal) transposes_S16x256_S256x16_1_0 := by
  show StableHlo.after hostOps0 (fun b => m (c, b)) (Proc.devRef .tc main_v1) = _
  after_results

/-- The second weight matrix as the region finds it: the argument, transposed. -/
theorem entry_b (c : Dev nD) : (V m c main_v2 : Wb.Idx → EReal)
    = transpose Wb [1, 0] (m ((c : Thread nD τ).loc main_arg2) : Wa.Idx → EReal) transposes_S256x16_S16x256_1_0 := by
  show StableHlo.after hostOps0 (fun b => m (c, b)) (Proc.devRef .tc main_v2) = _
  after_results

/-- The program's result as a function of its arguments. -/
abbrev result (c : Dev nD) : Img.Idx → EReal :=
  resultOf (k0_pay1 (F := Ideal)) shapeCasts_S64x256x32x32_S64x256x1024 shapeCasts_S64x256x1024_S64x256x32x32
    transposes_S16x256_S256x16_1_0 transposes_S256x16_S16x256_1_0
    (m ((c : Thread nD τ).loc main_arg0)) (m ((c : Thread nD τ).loc main_arg1)) (m ((c : Thread nD τ).loc main_arg2))

/-- What the lines after the region leave in the result buffer: the region's array (`region_final`), unflattened. -/
theorem result_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have hw := (Pipeline.withArrays_arr spec0 launch0.win.arr_inj c (V0 m c)
    (fun w => (dats m 0 c).arrAt w cfg0.N) 3).trans (region_final m c)
  unfold result resultOf
  rw [← entry_x m c, ← entry_a m c, ← entry_b m c]
  show shapeCast Img (Pipeline.withArrays spec0 c (V0 m c) (fun w => (dats m 0 c).arrAt w cfg0.N)
      (Proc.devRef .tc (Pipeline.arrRef spec0 3))) shapeCasts_S64x256x1024_S64x256x32x32 = _
  rw [hw]

/-- The run, read: the result buffer ends at `result`, the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Tile

end
-- ==== Proof.SameBody.lean ====
/-
  The two bodies are one per-tile function on the extended reals.

  Line by line the reference's body is: sum each (batch, channel) row over its 1024 spatial positions from zero, scale
  by 2⁻¹⁰ (the mean), multiply by the first weight matrix into a zero accumulator, take the maximum with zero,
  multiply by the second weight matrix into a zero accumulator, apply the logistic, and multiply every row of the tile
  by its channel's gate. The kernel's body is the same sequence with the same constants and the same contraction
  axes, except that it widens the tile's float format before the sum and narrows the gate's format before the final
  product. On the extended reals a change of float format is the identity, so the two payloads are equal as functions
  — no arithmetic law is used, and the inputs need not be finite.
-/
import proofs.«166209_g2000703635522999_pallasbulk_1314_29_alg».proof.Proof.Gen.KernelIdeal.Skeleton
import proofs.«166209_g2000703635522999_pallasbulk_1314_29_alg».proof.Proof.Gen.ReferenceIdeal.Skeleton
import proofs.«166209_g2000703635522999_pallasbulk_1314_29_alg».proof.Proof.TileSpec
import Idealize.ShloMosaic.Lib.ValueIdx

noncomputable section

namespace Cert.SeTile

open Idealize.ShloMosaic Idealize.ShloMosaic.ValueIdx

/-- The kernel's payload and the reference's are the same function of a tile and the two weight matrices: the
    kernel's two format changes read through at every index. -/
theorem payload_eq :
    (Cert.KernelIdeal.Gen.k0_pay1 (F := Ideal) :
      (Tile.Idx → EReal) → (Wa.Idx → EReal) → (Wb.Idx → EReal) → Tile.Idx → EReal)
    = Cert.ReferenceIdeal.Gen.k0_pay1 (F := Ideal) := by
  funext x a b
  unfold Cert.KernelIdeal.Gen.k0_pay1 Cert.ReferenceIdeal.Gen.k0_pay1
  rfl

end Cert.SeTile

end
-- ==== Proof.lean ====
/-
  The certificate of the squeeze-and-excitation kernel against its reference: on the extended reals both programs
  return, for activations x of shape [64, 256, 32, 32] and weight matrices w1 [16, 256], w2 [256, 16],

      out[b, c, ·] = x[b, c, ·] · logistic( Σ_r max( Σ_c' mean(x[b, c', ·]) · w1[r, c'] , 0 ) · w2[c, r] ).

  Both are one pipelined region of 8 grid points over batch tiles of 8 rows, between host lines that only re-lay data
  (flatten / unflatten the spatial axes, transpose the weights; the kernel also changes the float format on the way in
  and out, which on the extended reals is the identity). The three frames are the generated ones. The value part:
  each program's result is its body's payload spread over the batch axis between those layout operations
  (Proof/KernelRun.lean, Proof/ReferenceRun.lean, over the shape stated in Proof/TileSpec.lean), and the two payloads
  are one function (Proof/SameBody.lean). The ideal pass rewrote nothing, so the kernel's idealization is its own text.
-/
import proofs.«166209_g2000703635522999_pallasbulk_1314_29_alg».proof.Defs
import proofs.«166209_g2000703635522999_pallasbulk_1314_29_alg».proof.Proof.Gen.Kernel
import proofs.«166209_g2000703635522999_pallasbulk_1314_29_alg».proof.Proof.Gen.Kernel.Frame
import proofs.«166209_g2000703635522999_pallasbulk_1314_29_alg».proof.Proof.Gen.KernelIdeal
import proofs.«166209_g2000703635522999_pallasbulk_1314_29_alg».proof.Proof.Gen.KernelIdeal.Frame
import proofs.«166209_g2000703635522999_pallasbulk_1314_29_alg».proof.Proof.Gen.ReferenceIdeal
import proofs.«166209_g2000703635522999_pallasbulk_1314_29_alg».proof.Proof.Gen.ReferenceIdeal.Frame
import proofs.«166209_g2000703635522999_pallasbulk_1314_29_alg».proof.Proof.Gen.Pre_finite_inputs
import proofs.«166209_g2000703635522999_pallasbulk_1314_29_alg».proof.Proof.KernelRun
import proofs.«166209_g2000703635522999_pallasbulk_1314_29_alg».proof.Proof.ReferenceRun
import proofs.«166209_g2000703635522999_pallasbulk_1314_29_alg».proof.Proof.SameBody
import Idealize.ShloMosaic.Adequacy
import Idealize.ShloMosaic.Init

noncomputable section

namespace Cert.Proof

open Idealize.ShloMosaic Idealize.SL.Sem

/-- Each program runs to the end, faults nowhere and leaves its arguments as they were: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on the three arguments, both idealized programs end with the same result array: each
    is the same layout operations around its payload spread over the batch axis, and the payloads are one function. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Tile.run m' ρ')
  unfold Cert.ReferenceIdeal.Tile.result Cert.KernelIdeal.Tile.result
  rw [(hagree c).1, (hagree c).2.1, (hagree c).2.2, Cert.SeTile.payload_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
